-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S512x64 : Shape := ⟨2, ![512, 64]⟩
abbrev S512 : Shape := ⟨1, ![512]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S65536x64 .f32) (main_arg1 : FVec F S512x64 .f32) (main_arg2 : FVec F S512 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S65536x64 : Shape := ⟨2, ![65536, 64]⟩
abbrev S512x64 : Shape := ⟨2, ![512, 64]⟩
abbrev S512 : Shape := ⟨1, ![512]⟩
abbrev S_ : Shape := ⟨0, ![]⟩
abbrev S1x512 : Shape := ⟨2, ![1, 512]⟩
abbrev S65536x512 : Shape := ⟨2, ![65536, 512]⟩
abbrev S8192x64 : Shape := ⟨2, ![8192, 64]⟩
abbrev S8192x512 : Shape := ⟨2, ![8192, 512]⟩
abbrev S8192 : Shape := ⟨1, ![8192]⟩
abbrev S8192x1 : Shape := ⟨2, ![8192, 1]⟩

abbrev nBuf : Space → Nat
  | .hbm => 9
  | .vmem => 7
  | .smem => 0
  | _ => 0

abbrev bufTy : (tb : Table) → Fin (tcTables nBuf tb) → BufTy
  | .hbm, ⟨0, _⟩ => ⟨S65536x64, .f32⟩
  | .hbm, ⟨1, _⟩ => ⟨S512x64, .f32⟩
  | .hbm, ⟨2, _⟩ => ⟨S512, .f32⟩
  | .hbm, ⟨3, _⟩ => ⟨S512x64, .f32⟩
  | .hbm, ⟨4, _⟩ => ⟨S_, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S65536x512, .f32⟩
  | .local _ .vmem, ⟨0, _⟩ => ⟨S8192x64, .f32⟩
  | .local _ .vmem, ⟨1, _⟩ => ⟨S8192x64, .f32⟩
  | .local _ .vmem, ⟨2, _⟩ => ⟨S512x64, .f32⟩
  | .local _ .vmem, ⟨3, _⟩ => ⟨S1x512, .f32⟩
  | .local _ .vmem, ⟨4, _⟩ => ⟨S1x512, .f32⟩
  | .local _ .vmem, ⟨5, _⟩ => ⟨S8192x512, .f32⟩
  | .local _ .vmem, ⟨6, _⟩ => ⟨S8192x512, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S512x64_S512_d1 : S512x64.ReducesTo [1] S512
  h_S_ : 0 < S_.numel
  shapeCasts_S512_S1x512 : S512.ShapeCasts S1x512
  inb_S8192x64_S8192x64_0_0 : ∀ a, (![0, 0] : Fin 2 → Nat) a + S8192x64.size a ≤ S8192x64.size a
  h_S8192x64 : 0 < S8192x64.numel
  inb_S512x64_S512x64_0_0 : ∀ a, (![0, 0] : Fin 2 → Nat) a + S512x64.size a ≤ S512x64.size a
  h_S512x64 : 0 < S512x64.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S8192x64_S8192 : S8192x64.Reduces [1] S8192
  shapeCasts_S8192_S8192x1 : S8192.ShapeCasts S8192x1
  broadcasts_S8192x1_S8192x512 : S8192x1.Broadcasts S8192x512
  broadcasts_S1x512_S8192x512 : S1x512.Broadcasts S8192x512
  inb_S8192x512_S8192x512_0_0 : ∀ a, (![0, 0] : Fin 2 → Nat) a + S8192x512.size a ≤ S8192x512.size a
  h_S8192x512 : 0 < S8192x512.numel
  dot_S8192x64_S512x64_S8192x512_1_1_0_0_n_n_wf : DotDims.WF S8192x64 S512x64 S8192x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S65536x64.size a
  hwx0_0 : ∀ i : grid0.Coords, EltTy.bits .f32 = 32 ∨ (Rect.block (s := S65536x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x512.size a ≤ S65536x512.size a
  hwx0_4 : ∀ i : grid0.Coords, EltTy.bits .f32 = 32 ∨ (Rect.block (s := S65536x512) S8192x512.size (cc0_transform_4 i) (hinb0_4 i)).WholeWords (EltTy.packing .f32)

variable [Facts₀]

def dot_S8192x64_S512x64_S8192x512_1_1_0_0_n_n : DotDims S8192x64 S512x64 S8192x512 where
  lhsContracting := [1]
  rhsContracting := [1]
  lhsNonContracting := [0]
  rhsNonContracting := [0]
  lhsBatch := []
  rhsBatch := []
  wf := dot_S8192x64_S512x64_S8192x512_1_1_0_0_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8192x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x64 : Shape := ⟨2, ![65536, 64]⟩
abbrev S512x64 : Shape := ⟨2, ![512, 64]⟩
abbrev S512 : Shape := ⟨1, ![512]⟩
abbrev S_ : Shape := ⟨0, ![]⟩
abbrev S65536 : Shape := ⟨1, ![65536]⟩
abbrev S65536x1 : Shape := ⟨2, ![65536, 1]⟩
abbrev S1x512 : Shape := ⟨2, ![1, 512]⟩
abbrev S65536x512 : Shape := ⟨2, ![65536, 512]⟩
abbrev S64x512 : Shape := ⟨2, ![64, 512]⟩

abbrev nBuf : Space → Nat
  | .hbm => 28
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S512x64, .f32⟩
  | .hbm, ⟨2, _⟩ => ⟨S512, .f32⟩
  | .hbm, ⟨3, _⟩ => ⟨S65536x64, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S512x64, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536x64, .f32⟩
  | .hbm, ⟨16, _⟩ => ⟨S65536x64, .f32⟩
  | .hbm, ⟨17, _⟩ => ⟨S64x512, .f32⟩
  | .hbm, ⟨18, _⟩ => ⟨S65536x512, .f32⟩
  | .hbm, ⟨19, _⟩ => ⟨S65536x512, .f32⟩
  | .hbm, ⟨20, _⟩ => ⟨S_, .f32⟩
  | .hbm, ⟨21, _⟩ => ⟨S65536x512, .f32⟩
  | .hbm, ⟨22, _⟩ => ⟨S65536x512, .f32⟩
  | .hbm, ⟨23, _⟩ => ⟨S1x512, .f32⟩
  | .hbm, ⟨24, _⟩ => ⟨S1x512, .f32⟩
  | .hbm, ⟨25, _⟩ => ⟨S65536x512, .f32⟩
  | .hbm, ⟨26, _⟩ => ⟨S65536x512, .f32⟩
  | .hbm, ⟨27, _⟩ => ⟨S65536x512, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S512x64_S512_d1 : S512x64.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x64 : S_.BroadcastsInDim S65536x64 (![] : Fin 0 → Fin S65536x64.rank)
  transposes_S512x64_S64x512_1_0 : S512x64.Transposes [1, 0] S64x512
  bcast_S_S65536x512 : S_.BroadcastsInDim S65536x512 (![] : Fin 0 → Fin S65536x512.rank)
  dot_S65536x64_S64x512_S65536x512_1_0_0_1_n_n_wf : DotDims.WF S65536x64 S64x512 S65536x512 [1] [0] [0] [1] [] []

variable [Facts₀]

def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf

class Facts : Prop extends Facts₀ where

variable [Facts]
-- ==== Proof.RbfSpec.lean ====
/-
  The radial-basis layer as one function of the three argument arrays, index by index, on the extended reals:

    out[b, k] = exp( (-β[k]) · max( (Σ_d x[b,d]² + Σ_d c[k,d]²) − 2 · Σ_d x[b,d] · c[k,d] , 0 ) ),

  the squared distance ‖x_b − c_k‖² expanded into the two squared lengths and the cross term, clamped at zero.
  Also here: the one law that joins the two programs. One of them scales the cross term after the contraction
  (2 · Σ_d x·c), the other scales the rows of x before it (Σ_d (2·x)·c). A finite nonnegative factor distributes over
  every sum of extended reals, infinite summands included, so the two agree without any finiteness of the inputs.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Rbf

/-- The pattern of `2.0` denotes the real number 2. -/
theorem ofBits_two : Ideal.ofBits .f32 0x40000000#32 = ((2 : ℝ) : EReal) := by
  simp [Ideal.ofBits, Ideal.ieee, -EReal.coe_mul]; norm_num

theorem two_nonneg : (0 : EReal) ≤ ((2 : ℝ) : EReal) := by
  exact_mod_cast (by norm_num : (0 : ℝ) ≤ 2)

theorem two_ne_top : ((2 : ℝ) : EReal) ≠ ⊤ := EReal.coe_ne_top 2

/-- A finite nonnegative factor moves inside a finite sum of extended reals. -/
theorem mul_sum {ι : Type} (s : Finset ι) (r : EReal) (h0 : 0 ≤ r) (ht : r ≠ ⊤) (f : ι → EReal) :
    r * ∑ k ∈ s, f k = ∑ k ∈ s, r * f k := by
  classical
  induction s using Finset.induction_on with
  | empty => simp
  | insert a s ha ih =>
    rw [Finset.sum_insert ha, Finset.sum_insert ha, EReal.left_distrib_of_nonneg_of_ne_top h0 ht, ih]

/-- Scaling one factor of every product before a contraction is scaling the contraction. -/
theorem scaled_contraction {n : ℕ} (r : EReal) (h0 : 0 ≤ r) (ht : r ≠ ⊤) (x c : Fin n → EReal) :
    ∑ k, (r * x k) * c k = r * ∑ k, x k * c k := by
  rw [mul_sum _ r h0 ht]
  exact Finset.sum_congr rfl fun k _ => mul_assoc _ _ _

/-- The squared length of row `r` of an array with 64 columns. -/
def rowSq {n : ℕ} (x : (⟨2, ![n, 64]⟩ : Shape).Idx → EReal) (r : Fin n) : EReal :=
  ∑ d : Fin 64, x (ix2 r d) * x (ix2 r d)

/-- The inner product of row `b` of `x` with row `k` of `c`. -/
def rowDot (x : (⟨2, ![65536, 64]⟩ : Shape).Idx → EReal) (c : (⟨2, ![512, 64]⟩ : Shape).Idx → EReal)
    (b : Fin 65536) (k : Fin 512) : EReal :=
  ∑ d : Fin 64, x (ix2 b d) * c (ix2 k d)

/-- The layer's value at row `b`, centre `k`. -/
def rbfAt (x : (⟨2, ![65536, 64]⟩ : Shape).Idx → EReal) (c : (⟨2, ![512, 64]⟩ : Shape).Idx → EReal)
    (β : (⟨1, ![512]⟩ : Shape).Idx → EReal) (b : Fin 65536) (k : Fin 512) : EReal :=
  Ideal.exp (-(β (ix1 k)) * max ((rowSq x b + rowSq c k) - ((2 : ℝ) : EReal) * rowDot x c b k) 0)

/-- The layer's whole result array. -/
def rbf (x : (⟨2, ![65536, 64]⟩ : Shape).Idx → EReal) (c : (⟨2, ![512, 64]⟩ : Shape).Idx → EReal)
    (β : (⟨1, ![512]⟩ : Shape).Idx → EReal) : (⟨2, ![65536, 512]⟩ : Shape).Idx → EReal :=
  fun i => rbfAt x c β (i 0) (i 1)

theorem rbf_ix2 (x : (⟨2, ![65536, 64]⟩ : Shape).Idx → EReal) (c : (⟨2, ![512, 64]⟩ : Shape).Idx → EReal)
    (β : (⟨1, ![512]⟩ : Shape).Idx → EReal) (b : Fin 65536) (k : Fin 512) :
    rbf x c β (ix2 b k) = rbfAt x c β b k := rfl

end Cert.Rbf

end
-- ==== Proof.RefRead.lean ====
/-
  The reference program's result, read index by index, is the radial-basis layer `Cert.Rbf.rbf` of its three
  arguments: the keep-dimension row sums of x² and the row sums of c², broadcast to the result's shape, minus the
  contraction of the doubled x with the transposed c, clamped at zero, times the negated β, exponentiated.
  The only arithmetic step is the law `Cert.Rbf.scaled_contraction` (the factor 2 leaves the contraction).
-/
import proofs.«164589_j2430951489991_2_alg».proof.Proof.Gen.ReferenceIdeal.Read
import proofs.«164589_j2430951489991_2_alg».proof.Proof.RbfSpec

noncomputable section

open Idealize.ShloMosaic Idealize.ShloMosaic.TcCoe Idealize.ShloMosaic.ValueIdx

namespace Cert.ReferenceIdeal.RefValue

open Cert.ReferenceIdeal Cert.ReferenceIdeal.Read

/-- The β entry the result's column `q` reads. -/
theorem idx_beta (p : Fin 65536) (q : Fin 512) : idx_main_v16 (idx_main_v18 (ix2 p q)) = ix1 q :=
  funext fun a => Fin.ext (by match a with | ⟨0, _⟩ => rfl)

/-- The entries of x the squared length of row `p` sums. -/
theorem idx_xsq (p : Fin 65536) (q : Fin 512) (k : Fin 64) :
    idx_main_v1 (idx_main_v2 (idx_main_v6 (ix2 p q))) k = ix2 p k :=
  funext fun a => Fin.ext (by match a with | ⟨0, _⟩ => rfl | ⟨1, _⟩ => rfl)

/-- The entries of c the squared length of row `q` sums. -/
theorem idx_csq (p : Fin 65536) (q : Fin 512) (k : Fin 64) :
    idx_main_v4 (idx_main_v5 (idx_main_v7 (ix2 p q))) k = ix2 q k :=
  funext fun a => Fin.ext (by match a with | ⟨0, _⟩ => rfl | ⟨1, _⟩ => rfl)

/-- The contraction's left factor at `(p, q)`, term `k`. -/
theorem idx_lhs (p : Fin 65536) (q : Fin 512) (k : Fin 64) : lidx_main_v12 (ix2 p q) k = ix2 p k :=
  funext fun a => Fin.ext (by match a with | ⟨0, _⟩ => rfl | ⟨1, _⟩ => rfl)

/-- The contraction's right factor at `(p, q)`, term `k`, read through the transpose. -/
theorem idx_rhs (p : Fin 65536) (q : Fin 512) (k : Fin 64) :
    idx_main_v11 (ridx_main_v12 (ix2 p q) k) = ix2 q k :=
  funext fun a => Fin.ext (by match a with | ⟨0, _⟩ => rfl | ⟨1, _⟩ => rfl)

/-- The reference's result array is the layer of its arguments. -/
theorem ref_is_rbf (x0 : (⟨S65536x64, .f32⟩ : BufTy).Contents (Elt Ideal)) (x1 : (⟨S512x64, .f32⟩ : BufTy).Contents (Elt Ideal))
    (x2 : (⟨S512, .f32⟩ : BufTy).Contents (Elt Ideal)) :
    val_main_v20 (F := Ideal) x0 x1 x2 = Cert.Rbf.rbf x0 x1 x2 := by
  funext i
  obtain ⟨p, q, rfl⟩ : ∃ (p : Fin 65536) (q : Fin 512), i = ix2 p q := ⟨i 0, i 1, eq_ix2 i⟩
  rw [Cert.Rbf.rbf_ix2]
  simp only [val_main_v20_apply, val_main_v19_apply, val_main_v18_apply, val_main_v17_apply, val_main_v16_apply,
    val_main_v15_apply, val_main_v14_apply, val_main_cst_2_apply, val_main_v13_apply, val_main_v12_apply,
    val_main_v11_apply, val_main_v10_apply, val_main_v9_apply, val_main_cst_1_apply, val_main_v8_apply,
    val_main_v7_apply, val_main_v6_apply, val_main_v5_apply, val_main_v4_apply, val_main_cst_0_apply,
    val_main_v3_apply, val_main_v2_apply, val_main_v1_apply, val_main_cst_apply, val_main_v0_apply,
    idx_beta, idx_xsq, idx_csq, idx_lhs, idx_rhs,
    Ideal.hostUnary_exp_def, Ideal.mulf_def, Ideal.hostNegf_def, Ideal.negf_def, Ideal.maximumf_def, Ideal.subf_def,
    Ideal.addf_def, Ideal.ofBits_def, Ideal.ofBits_zero_f32, zero_add, Cert.Rbf.ofBits_two]
  rw [Cert.Rbf.scaled_contraction _ Cert.Rbf.two_nonneg Cert.Rbf.two_ne_top]
  rfl

end Cert.ReferenceIdeal.RefValue

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.BodyValue.lean ====
/-
  What the kernel body stores at row `p`, column `q` of its output block, as a function of the four blocks it loads
  (a block of rows of x, the whole of c, the row of squared centre lengths, the row of β):

    exp( (0 − β[q]) · max( (Σ_d x[p,d]² + c2[q]) − 2 · Σ_d x[p,d] · c[q,d] , 0 ) ).

  The lane sum of x² kept as a column and broadcast along the row, the two one-row blocks broadcast down the
  columns, and the matrix product contracting the second axis of both operands are each read at the index.
-/
import proofs.«164589_j2430951489991_2_alg».proof.Proof.Gen.KernelIdeal.Skeleton
import proofs.«164589_j2430951489991_2_alg».proof.Proof.RbfSpec
import proofs.«164589_j2430951489991_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx

namespace Cert.KernelIdeal.BodyValue

open Cert.KernelIdeal Cert.KernelIdeal.Gen

/-- The product's left operand index on its free axis is the result's row. -/
theorem lhs_free (i : S8192x512.Idx) (k : dot_S8192x64_S512x64_S8192x512_1_1_0_0_n_n.contr.Idx) :
    (dot_S8192x64_S512x64_S8192x512_1_1_0_0_n_n.lhsIdx i k 0).val = (i 0).val := by
  unfold DotDims.lhsIdx
  rw [dif_neg (show ¬(0 : Fin S8192x64.rank) ∈ dot_S8192x64_S512x64_S8192x512_1_1_0_0_n_n.lhsBatch by decide),
    dif_pos (show (0 : Fin S8192x64.rank) ∈ dot_S8192x64_S512x64_S8192x512_1_1_0_0_n_n.lhsNonContracting by decide)]
  rfl

/-- The product's right operand index on its free axis is the result's column. -/
theorem rhs_free (i : S8192x512.Idx) (k : dot_S8192x64_S512x64_S8192x512_1_1_0_0_n_n.contr.Idx) :
    (dot_S8192x64_S512x64_S8192x512_1_1_0_0_n_n.rhsIdx i k 0).val = (i 1).val := by
  unfold DotDims.rhsIdx
  rw [dif_neg (show ¬(0 : Fin S512x64.rank) ∈ dot_S8192x64_S512x64_S8192x512_1_1_0_0_n_n.rhsBatch by decide),
    dif_pos (show (0 : Fin S512x64.rank) ∈ dot_S8192x64_S512x64_S8192x512_1_1_0_0_n_n.rhsNonContracting by decide)]
  rfl

/-- The matrix product into a zero accumulator, at `(p, q)`: row `p` of the left operand against row `q` of the right. -/
theorem matmul_at (v0 : FVec Ideal S8192x64 .f32) (v1 : FVec Ideal S512x64 .f32) (p : Fin 8192) (q : Fin 512) :
    matmul dot_S8192x64_S512x64_S8192x512_1_1_0_0_n_n (some .fp32) v0 v1 (constant S8192x512 .f32 0x00000000#32) (ix2 p q)
      = ∑ d : Fin 64, v0 (ix2 p d) * v1 (ix2 q d) := by
  refine (Ideal.matmul_constant_zero_apply _ _ _ _ _).trans ?_
  rw [← Equiv.sum_comp (ValueIdx.contrEquiv1 dot_S8192x64_S512x64_S8192x512_1_1_0_0_n_n 64 rfl rfl).symm]
  refine Finset.sum_congr rfl fun k _ => ?_
  have hk := ValueIdx.contrEquiv1_symm_val dot_S8192x64_S512x64_S8192x512_1_1_0_0_n_n 64 rfl rfl k
  have el : dot_S8192x64_S512x64_S8192x512_1_1_0_0_n_n.lhsIdx (ix2 p q)
      ((ValueIdx.contrEquiv1 dot_S8192x64_S512x64_S8192x512_1_1_0_0_n_n 64 rfl rfl).symm k) = ix2 p k :=
    funext fun a => Fin.ext (by
      match a with
      | ⟨0, _⟩ => exact lhs_free _ _
      | ⟨1, _⟩ => exact (dot_S8192x64_S512x64_S8192x512_1_1_0_0_n_n.lhsIdx_val_of_single rfl _ _).trans hk)
  have er : dot_S8192x64_S512x64_S8192x512_1_1_0_0_n_n.rhsIdx (ix2 p q)
      ((ValueIdx.contrEquiv1 dot_S8192x64_S512x64_S8192x512_1_1_0_0_n_n 64 rfl rfl).symm k) = ix2 q k :=
    funext fun a => Fin.ext (by
      match a with
      | ⟨0, _⟩ => exact rhs_free _ _
      | ⟨1, _⟩ => exact (dot_S8192x64_S512x64_S8192x512_1_1_0_0_n_n.rhsIdx_val_of_single rfl _ _).trans hk)
  rw [el, er]

/-- The stored value at `(p, q)`. -/
theorem pay_at (v0 : FVec Ideal S8192x64 .f32) (v1 : FVec Ideal S512x64 .f32) (v2 v4 : FVec Ideal S1x512 .f32)
    (p : Fin 8192) (q : Fin 512) :
    k0_pay1 (F := Ideal) v0 v1 v2 v4 (ix2 p q)
      = Ideal.exp (-(v4 (ix2 (0 : Fin 1) q)) * max ((Cert.Rbf.rowSq v0 p + v2 (ix2 (0 : Fin 1) q))
          - ((2 : ℝ) : EReal) * ∑ d : Fin 64, v0 (ix2 p d) * v1 (ix2 q d)) 0) := by
  unfold k0_pay1
  simp only [shapeCast_self]
  rw [Cert.Lib.exp_apply, mulf_apply, maximumf_apply, subf_apply, addf_apply, mulf_apply]
  rw [broadcastTo_1b_ab_apply, broadcastTo_1b_ab_apply, Cert.Lib.broadcastTo_a1_ab_apply,
    Cert.Lib.shapeCast_a_a1_apply, Cert.Lib.multiReduction_add_row, matmul_at]
  simp only [subf_apply, mulf_apply, broadcast_apply, Ideal.ofBits_def, Ideal.ofBits_zero_f32, zero_sub,
    Cert.Rbf.ofBits_two]
  rfl

end Cert.KernelIdeal.BodyValue

end
-- ==== Proof.ArrayValue.lean ====
/-
  From blocks to the array. The grid has eight points; point `t` stages rows `8192·t … 8192·t + 8191` of x, the
  whole of c, the whole row of squared centre lengths (a host reduction of c², reshaped to one row) and the whole
  row of β (reshaped to one row), and writes back rows `8192·t … 8192·t + 8191` of the result. What it writes back
  is the same rows of the layer `Cert.Rbf.rbf` of the three argument arrays; the eight row blocks cover the
  result; so after the run the result array is the layer of the arguments.
-/
import proofs.«164589_j2430951489991_2_alg».proof.Proof.Gen.KernelIdeal.Value
import proofs.«164589_j2430951489991_2_alg».proof.Proof.BodyValue
import Idealize.ShloMosaic.Lib.StableHlo.Run
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The block indices over the grid: x and the result move one block of rows per point, the others stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The two rows the host prepares -/

/-- The row of squared centre lengths as the region finds it: the host's sum of c² over the columns, reshaped. -/
theorem V_c2 (c : Dev nD) : (V m c main_v2 : S1x512.Idx → EReal)
    = shapeCast S1x512 (Host.reduceAdd (F := Ideal) (mulf (m ((c : Thread nD τ).loc main_arg1)) (m ((c : Thread nD τ).loc main_arg1)))
        (constant (F := Ideal) S_ .f32 0x00000000#32) reducesTo_S512x64_S512_d1 h_S_) shapeCasts_S512_S1x512 := by
  dsimp only [Gen.V, Gen.hostOps0]
  after_results
  rfl

/-- The row of β as the region finds it: the argument reshaped. -/
theorem V_beta (c : Dev nD) : (V m c main_v3 : S1x512.Idx → EReal)
    = shapeCast S1x512 (m ((c : Thread nD τ).loc main_arg2)) shapeCasts_S512_S1x512 := by
  dsimp only [Gen.V, Gen.hostOps0]
  after_results
  rfl

/-- Entry `q` of the host's row is the squared length of row `q` of c. -/
theorem c2_at (c : Dev nD) (q : Fin 512) :
    (V m c main_v2 : S1x512.Idx → EReal) (ix2 (0 : Fin 1) q) = Cert.Rbf.rowSq (m ((c : Thread nD τ).loc main_arg1)) q := by
  rw [V_c2 m c, shapeCast_a_1a_apply]
  generalize (m ((c : Thread nD τ).loc main_arg1) : S512x64.Idx → EReal) = C
  simp only [Host.reduceAdd, Ideal.hostReduceAdd_def]
  rw [Ideal.hostReduceAdd_single reducesTo_S512x64_S512_d1 (by decide)]
  show Ideal.ofBits .f32 0x00000000#32 + _ = _
  rw [Ideal.ofBits_zero_f32, zero_add]
  exact Finset.sum_congr rfl fun k _ => by rw [Cert.Lib.lift_row]; rfl

/-- Entry `q` of the reshaped β is β at `q`. -/
theorem beta_at (c : Dev nD) (q : Fin 512) :
    (V m c main_v3 : S1x512.Idx → EReal) (ix2 (0 : Fin 1) q) = (m ((c : Thread nD τ).loc main_arg2) : S512.Idx → EReal) (ix1 q) := by
  rw [V_beta m c, shapeCast_a_1a_apply]

/-! ## The staged blocks, read at an index -/

/-- x's block at point `t` is rows `8192·t …` of the argument. -/
theorem xblk_at (c : Dev nD) (t : Fin cfg0.N) (r : Fin 8192) (d : Fin 64) (b : Fin 65536) (hb : b.val = 8192 * t.val + r.val) :
    (iblk m c 0 t : Vec Ideal S8192x64 .f32) (ix2 r d) = (m ((c : Thread nD τ).loc main_arg0) : S65536x64.Idx → EReal) (ix2 b d) := by
  obtain ⟨e0, e1, -⟩ := idx_facts t
  unfold iblk
  rw [View.read_apply]
  show V m c main_arg0 _ = _
  rw [V_main_arg0 m c]
  refine congrArg (m ((c : Thread nD τ).loc main_arg0) : S65536x64.Idx → EReal) ?_
  funext a
  apply Fin.ext
  match a with
  | ⟨0, _⟩ => show win0_0.index t (0 : Fin 2) * 8192 + 1 * r.val = b.val; rw [e0, hb]; omega
  | ⟨1, _⟩ => show win0_0.index t (1 : Fin 2) * 64 + 1 * d.val = d.val; rw [e1]; omega

/-- c's block at every point is the whole argument. -/
theorem cblk_at (c : Dev nD) (t : Fin cfg0.N) (q : Fin 512) (d : Fin 64) :
    (iblk m c 1 t : Vec Ideal S512x64 .f32) (ix2 q d) = (m ((c : Thread nD τ).loc main_arg1) : S512x64.Idx → EReal) (ix2 q d) := by
  obtain ⟨-, -, e0, e1, -⟩ := idx_facts t
  unfold iblk
  rw [View.read_apply]
  show V m c main_arg1 _ = _
  rw [V_main_arg1 m c]
  refine congrArg (m ((c : Thread nD τ).loc main_arg1) : S512x64.Idx → EReal) ?_
  funext a
  apply Fin.ext
  match a with
  | ⟨0, _⟩ => show win0_1.index t (0 : Fin 2) * 512 + 1 * q.val = q.val; rw [e0]; omega
  | ⟨1, _⟩ => show win0_1.index t (1 : Fin 2) * 64 + 1 * d.val = d.val; rw [e1]; omega

/-- The block of squared centre lengths at every point, at column `q`. -/
theorem c2blk_at (c : Dev nD) (t : Fin cfg0.N) (q : Fin 512) :
    (iblk m c 2 t : Vec Ideal S1x512 .f32) (ix2 (0 : Fin 1) q) = Cert.Rbf.rowSq (m ((c : Thread nD τ).loc main_arg1)) q := by
  obtain ⟨-, -, -, -, e0, e1, -⟩ := idx_facts t
  refine Eq.trans ?_ (c2_at m c q)
  unfold iblk
  rw [View.read_apply]
  show V m c main_v2 _ = _
  refine congrArg (V m c main_v2 : S1x512.Idx → EReal) ?_
  funext a
  apply Fin.ext
  match a with
  | ⟨0, _⟩ => show win0_2.index t (0 : Fin 2) * 1 + 1 * 0 = 0; rw [e0]
  | ⟨1, _⟩ => show win0_2.index t (1 : Fin 2) * 512 + 1 * q.val = q.val; rw [e1]; omega

/-- The block of β at every point, at column `q`. -/
theorem betablk_at (c : Dev nD) (t : Fin cfg0.N) (q : Fin 512) :
    (iblk m c 3 t : Vec Ideal S1x512 .f32) (ix2 (0 : Fin 1) q) = (m ((c : Thread nD τ).loc main_arg2) : S512.Idx → EReal) (ix1 q) := by
  obtain ⟨-, -, -, -, -, -, e0, e1, -⟩ := idx_facts t
  refine Eq.trans ?_ (beta_at m c q)
  unfold iblk
  rw [View.read_apply]
  show V m c main_v3 _ = _
  refine congrArg (V m c main_v3 : S1x512.Idx → EReal) ?_
  funext a
  apply Fin.ext
  match a with
  | ⟨0, _⟩ => show win0_3.index t (0 : Fin 2) * 1 + 1 * 0 = 0; rw [e0]
  | ⟨1, _⟩ => show win0_3.index t (1 : Fin 2) * 512 + 1 * q.val = q.val; rw [e1]; omega

/-! ## The stored value is the layer -/

/-- The body's stored value at `(r, q)`, when its four loaded blocks are the rows `b` of x, c, the squared centre
    lengths and β, is the layer at `(b, q)`. -/
theorem pay_is_rbf (X : (⟨2, ![65536, 64]⟩ : Shape).Idx → EReal) (C : (⟨2, ![512, 64]⟩ : Shape).Idx → EReal)
    (B : (⟨1, ![512]⟩ : Shape).Idx → EReal)
    (v0 : FVec Ideal S8192x64 .f32) (v1 : FVec Ideal S512x64 .f32) (v2 v4 : FVec Ideal S1x512 .f32)
    (r : Fin 8192) (q : Fin 512) (b : Fin 65536)
    (h0 : ∀ d : Fin 64, v0 (ix2 r d) = X (ix2 b d)) (h1 : ∀ d : Fin 64, v1 (ix2 q d) = C (ix2 q d))
    (h2 : v2 (ix2 (0 : Fin 1) q) = Cert.Rbf.rowSq C q) (h4 : v4 (ix2 (0 : Fin 1) q) = B (ix1 q)) :
    k0_pay1 (F := Ideal) v0 v1 v2 v4 (ix2 r q) = Cert.Rbf.rbfAt X C B b q := by
  rw [BodyValue.pay_at, h2, h4]
  unfold Cert.Rbf.rbfAt Cert.Rbf.rowSq Cert.Rbf.rowDot
  simp only [h0, h1]

/-! ## What a point writes back, the cover, the run -/

/-- The layer of the argument arrays as launched, on device `c`. -/
abbrev result (c : Dev nD) : Buf (Elt Ideal) ((c : Thread nD τ).loc main_v4) :=
  Cert.Rbf.rbf (m ((c : Thread nD τ).loc main_arg0)) (m ((c : Thread nD τ).loc main_arg1)) (m ((c : Thread nD τ).loc main_arg2))

/-- Point `t` writes back rows `8192·t …` of the layer. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S8192x64) hz, View.ld_unit_zero (S := S512x64) hz, View.ld_unit_zero (S := S1x512) hz]
  obtain ⟨-, -, -, -, -, -, -, -, e0, e1⟩ := idx_facts t
  have hN : cfg0.N = 8 := N_0
  have ht : t.val < 8 := hN ▸ t.isLt
  funext j
  obtain ⟨r, q, rfl⟩ : ∃ (r : Fin 8192) (q : Fin 512), j = ix2 r q := ⟨j 0, j 1, eq_ix2 j⟩
  have hr : r.val < 8192 := r.isLt
  show k0_pay1 (F := Ideal) (iblk m c 0 t) (iblk m c 1 t) (iblk m c 2 t) (iblk m c 3 t) (ix2 r q)
    = result m c (((cfg0.win 4).blk t).view.emb (ix2 r q))
  have hemb : ((cfg0.win 4).blk t).view.emb (ix2 r q) = ix2 (⟨8192 * t.val + r.val, by omega⟩ : Fin 65536) q := by
    funext a
    apply Fin.ext
    match a with
    | ⟨0, _⟩ => show win0_4.index t (0 : Fin 2) * 8192 + 1 * r.val = 8192 * t.val + r.val; rw [e0]; omega
    | ⟨1, _⟩ => show win0_4.index t (1 : Fin 2) * 512 + 1 * q.val = q.val; rw [e1]; omega
  rw [hemb]
  exact pay_is_rbf (m ((c : Thread nD τ).loc main_arg0)) (m ((c : Thread nD τ).loc main_arg1)) (m ((c : Thread nD τ).loc main_arg2))
    (iblk m c 0 t) (iblk m c 1 t) (iblk m c 2 t) (iblk m c 3 t) r q ⟨8192 * t.val + r.val, by omega⟩
    (fun d => xblk_at m c t r d _ rfl) (fun d => cblk_at m c t q d) (c2blk_at m c t q) (betablk_at m c t q)

/-- An index of the result is in point `t`'s block iff each coordinate is in the block's range on its axis. -/
theorem mem_blk (t : Fin cfg0.N) (i : S65536x512.Idx) :
    i ∈ ((cfg0.win 4).blk t).view.set ↔ ∀ a : Fin 2, win0_4.index t a * S8192x512.size a ≤ (i a).val
      ∧ (i a).val < win0_4.index t a * S8192x512.size a + S8192x512.size a := by
  show i ∈ ((View.whole main_v4).slice (win0_4.rect t)).set ↔ _
  rw [View.set_slice_whole, Rect.mem_set_unit]
  exact Iff.rfl

/-- Every index of the result lies in the block of the point its row falls in. -/
theorem cover (i : S65536x512.Idx) :
    ∃ t : Fin cfg0.N, (cfg0.win 4).flush t = true ∧ i ∈ ((cfg0.win 4).blk t).view.set := by
  have hi0 : (i 0).val < 65536 := (i 0).isLt
  have hi1 : (i 1).val < 512 := (i 1).isLt
  have hN : cfg0.N = 8 := N_0
  obtain ⟨t, ht⟩ : ∃ t : Fin cfg0.N, t.val = (i 0).val / 8192 := ⟨⟨(i 0).val / 8192, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 8192 ≤ (i 0).val ∧ (i 0).val < win0_4.index t (0 : Fin 2) * 8192 + 8192
    rw [e0, ht]; omega
  | ⟨1, _⟩ =>
    show win0_4.index t (1 : Fin 2) * 512 ≤ (i 1).val ∧ (i 1).val < win0_4.index t (1 : Fin 2) * 512 + 512
    rw [e1]; omega

/-- After the run the result array is the layer of the arguments. -/
theorem final (c : Dev nD) : (dats m 0 c).arrAt 4 cfg0.N = result m c :=
  (dats m 0 c).arrAt_eq_of_cover 4 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  A radial-basis layer, out[b, k] = exp(−β[k] · ‖x[b] − c[k]‖²), with the squared distance expanded as
  Σ_d x[b,d]² + Σ_d c[k,d]² − 2 · Σ_d x[b,d] · c[k,d] and clamped at zero.

  The kernel walks the 65536 rows of x in eight blocks of 8192; for each block it takes the lane sums of x², adds
  the row of squared centre lengths (summed once on the host), subtracts twice the matrix product of the block
  with c (contracting the 64 columns of both), clamps at zero, multiplies by 0 − β and exponentiates. The reference
  computes the same expression on whole arrays, except that it doubles x BEFORE the contraction, Σ_d (2·x)·c.
  On the extended reals a finite nonnegative factor distributes over any finite sum, so the two cross terms are
  equal for all inputs (`Cert.Rbf.scaled_contraction`); every other step is the same operation on both sides
  (a sum into a zero initial value is the sum, 0 − β is −β). Hence both programs end with the array
  `Cert.Rbf.rbf x c β`:
    * the reference, read operation by operation at an index (Proof/RefRead.lean);
    * the kernel, from what its body stores at an index (Proof/BodyValue.lean), the blocks its windows stage and
      the cover of the result by the eight row blocks (Proof/ArrayValue.lean).
  The three frames are the generated ones (the reference's is its run with the result dropped); the idealization
  rewrote nothing, so `preserves` is trivial.
-/
import proofs.«164589_j2430951489991_2_alg».proof.Defs
import proofs.«164589_j2430951489991_2_alg».proof.Proof.Gen.Kernel
import proofs.«164589_j2430951489991_2_alg».proof.Proof.Gen.Kernel.Skeleton
import proofs.«164589_j2430951489991_2_alg».proof.Proof.Gen.Kernel.Launch
import proofs.«164589_j2430951489991_2_alg».proof.Proof.Gen.Kernel.Points
import proofs.«164589_j2430951489991_2_alg».proof.Proof.Gen.Kernel.Frame
import proofs.«164589_j2430951489991_2_alg».proof.Proof.Gen.KernelIdeal
import proofs.«164589_j2430951489991_2_alg».proof.Proof.Gen.KernelIdeal.Skeleton
import proofs.«164589_j2430951489991_2_alg».proof.Proof.Gen.KernelIdeal.Launch
import proofs.«164589_j2430951489991_2_alg».proof.Proof.Gen.KernelIdeal.Points
import proofs.«164589_j2430951489991_2_alg».proof.Proof.Gen.KernelIdeal.Frame
import proofs.«164589_j2430951489991_2_alg».proof.Proof.Gen.ReferenceIdeal
import proofs.«164589_j2430951489991_2_alg».proof.Proof.Gen.Pre_finite_inputs
import proofs.«164589_j2430951489991_2_alg».proof.Proof.Gen.KernelIdeal.Value
import proofs.«164589_j2430951489991_2_alg».proof.Proof.Gen.ReferenceIdeal.Run
import proofs.«164589_j2430951489991_2_alg».proof.Proof.Gen.ReferenceIdeal.Read
import proofs.«164589_j2430951489991_2_alg».proof.Proof.RefRead
import proofs.«164589_j2430951489991_2_alg».proof.Proof.ArrayValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel ends with the layer of its arguments and the reference with the layer
    of its own: one array. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.ref_is_rbf, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
